-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4096x4096 : Shape := ⟨2, ![4096, 4096]⟩
abbrev S4096x128 : Shape := ⟨2, ![4096, 128]⟩
abbrev S4096x16 : Shape := ⟨2, ![4096, 16]⟩
abbrev S16x4096 : Shape := ⟨2, ![16, 4096]⟩
abbrev S_ : Shape := ⟨0, ![]⟩
abbrev S4096 : Shape := ⟨1, ![4096]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_
  reducesTo_S_S_d : S_.ReducesTo [] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : FVec F S_ .f32) (main_arg6 : FVec F S4096 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S_ .f32 := Host.absf main_arg5
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  let main_v23 : FVec F S4096 .f32 := Host.absf main_arg6
  let main_cst_8 : FVec F S_ .f32 := constant S_ .f32 0x7F800000#32
  let main_v24 : FVec F S4096 .f32 := broadcastInDim S4096 ![] bcast_S_S4096 main_cst_8
  let main_v25 : IVec S4096 1 := cmpf .olt main_v23 main_v24
  let main_c_9 : IVec S_ 1 := constantI S_ 1 1#1
  let main_v26 : IVec S_ 1 := (fun x v => Host.reduce IntOp.andi x v reducesTo_S4096_S_d0 h_S_) main_v25 main_c_9
  let main_v27 : IVec S_ 1 := andi main_v22 main_v26
  main_v27

def fn {F : FTy → Type} [FloatOps F] (main_arg0 : FVec F S2048x4096 .f32) (main_arg1 : IVec S4096x4096 32) (main_arg2 : FVec F S4096x128 .f32) (main_arg3 : FVec F S4096x16 .f32) (main_arg4 : FVec F S16x4096 .f32) (main_arg5 : FVec F S_ .f32) (main_arg6 : FVec F S4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x128 .f32 := Host.absf main_arg2
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096x16 .f32 := Host.absf main_arg3
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  let main_v14 : FVec F S16x4096 .f32 := Host.absf main_arg4
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg5 main_arg6 main_v13 main_v16
-- ==== Kernel.lean ====
abbrev S2048x4096 : Shape := ⟨2, ![2048, 4096]⟩
abbrev S4096x4096 : Shape := ⟨2, ![4096, 4096]⟩
abbrev S4096x128 : Shape := ⟨2, ![4096, 128]⟩
abbrev S4096x16 : Shape := ⟨2, ![4096, 16]⟩
abbrev S16x4096 : Shape := ⟨2, ![16, 4096]⟩
abbrev S_ : Shape := ⟨0, ![]⟩
abbrev S4096 : Shape := ⟨1, ![4096]⟩
abbrev S8x256 : Shape := ⟨2, ![8, 256]⟩
abbrev S128x4096 : Shape := ⟨2, ![128, 4096]⟩
abbrev S1x4096 : Shape := ⟨2, ![1, 4096]⟩
abbrev S1x1 : Shape := ⟨2, ![1, 1]⟩
abbrev S2048x256 : Shape := ⟨2, ![2048, 256]⟩
abbrev S1024x256 : Shape := ⟨2, ![1024, 256]⟩
abbrev S8x1024 : Shape := ⟨2, ![8, 1024]⟩
abbrev S1024x16 : Shape := ⟨2, ![1024, 16]⟩
abbrev S16x256 : Shape := ⟨2, ![16, 256]⟩
abbrev S1x1024 : Shape := ⟨2, ![1, 1024]⟩
abbrev S2048x1024 : Shape := ⟨2, ![2048, 1024]⟩
abbrev S1024x8 : Shape := ⟨2, ![1024, 8]⟩

abbrev nBuf : Space → Nat
  | .hbm => 13
  | .vmem => 16
  | .smem => 0
  | _ => 0

abbrev bufTy : (tb : Table) → Fin (tcTables nBuf tb) → BufTy
  | .hbm, ⟨0, _⟩ => ⟨S2048x4096, .f32⟩
  | .hbm, ⟨1, _⟩ => ⟨S4096x4096, .i32⟩
  | .hbm, ⟨2, _⟩ => ⟨S4096x128, .f32⟩
  | .hbm, ⟨3, _⟩ => ⟨S4096x16, .f32⟩
  | .hbm, ⟨4, _⟩ => ⟨S16x4096, .f32⟩
  | .hbm, ⟨5, _⟩ => ⟨S_, .f32⟩
  | .hbm, ⟨6, _⟩ => ⟨S4096, .f32⟩
  | .hbm, ⟨7, _⟩ => ⟨S8x256, .f32⟩
  | .hbm, ⟨8, _⟩ => ⟨S128x4096, .f32⟩
  | .hbm, ⟨9, _⟩ => ⟨S1x4096, .f32⟩
  | .hbm, ⟨10, _⟩ => ⟨S1x1, .f32⟩
  | .hbm, ⟨11, _⟩ => ⟨S2048x4096, .bf16⟩
  | .hbm, ⟨12, _⟩ => ⟨S2048x4096, .f32⟩
  | .local _ .vmem, ⟨0, _⟩ => ⟨S2048x256, .bf16⟩
  | .local _ .vmem, ⟨1, _⟩ => ⟨S2048x256, .bf16⟩
  | .local _ .vmem, ⟨2, _⟩ => ⟨S1024x256, .i32⟩
  | .local _ .vmem, ⟨3, _⟩ => ⟨S1024x256, .i32⟩
  | .local _ .vmem, ⟨4, _⟩ => ⟨S8x1024, .f32⟩
  | .local _ .vmem, ⟨5, _⟩ => ⟨S8x1024, .f32⟩
  | .local _ .vmem, ⟨6, _⟩ => ⟨S1024x16, .f32⟩
  | .local _ .vmem, ⟨7, _⟩ => ⟨S1024x16, .f32⟩
  | .local _ .vmem, ⟨8, _⟩ => ⟨S16x256, .f32⟩
  | .local _ .vmem, ⟨9, _⟩ => ⟨S16x256, .f32⟩
  | .local _ .vmem, ⟨10, _⟩ => ⟨S1x1024, .f32⟩
  | .local _ .vmem, ⟨11, _⟩ => ⟨S1x1024, .f32⟩
  | .local _ .vmem, ⟨12, _⟩ => ⟨S1x1, .f32⟩
  | .local _ .vmem, ⟨13, _⟩ => ⟨S8x256, .f32⟩
  | .local _ .vmem, ⟨14, _⟩ => ⟨S2048x1024, .f32⟩
  | .local _ .vmem, ⟨15, _⟩ => ⟨S2048x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![1, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S2048x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

class Facts₀ : Prop where
  transposes_S4096x128_S128x4096_1_0 : S4096x128.Transposes [1, 0] S128x4096
  shapeCasts_S4096_S1x4096 : S4096.ShapeCasts S1x4096
  shapeCasts_S_S1x1 : S_.ShapeCasts S1x1
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S1024x256_S1024x256_0_0 : ∀ a, (![0, 0] : Fin 2 → Nat) a + S1024x256.size a ≤ S1024x256.size a
  h_S1024x256 : 0 < S1024x256.numel
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  transposes_S8x1024_p1_0_S1024x8 : S8x1024.Transposes [1, 0] S1024x8
  inb_S8x256_S8x256_0_0 : ∀ a, (![0, 0] : Fin 2 → Nat) a + S8x256.size a ≤ S8x256.size a
  h_S8x256 : 0 < S8x256.numel
  inb_S1024x16_S1024x16_0_0 : ∀ a, (![0, 0] : Fin 2 → Nat) a + S1024x16.size a ≤ S1024x16.size a
  h_S1024x16 : 0 < S1024x16.numel
  inb_S16x256_S16x256_0_0 : ∀ a, (![0, 0] : Fin 2 → Nat) a + S16x256.size a ≤ S16x256.size a
  h_S16x256 : 0 < S16x256.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x256 : S1x1.Broadcasts S1024x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S1024x8_S8x256_S1024x256_1_0_0_1_n_n_wf : DotDims.WF S1024x8 S8x256 S1024x256 [1] [0] [0] [1] [] []
  dot_S1024x16_S16x256_S1024x256_1_0_0_1_n_n_wf : DotDims.WF S1024x16 S16x256 S1024x256 [1] [0] [0] [1] [] []
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S2048x4096.size a
  hwx0_0 : ∀ i : grid0.Coords, EltTy.bits .bf16 = 32 ∨ (Rect.block (s := S2048x4096) S2048x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x4096.size a
  hwx0_1 : ∀ i : grid0.Coords, EltTy.bits .i32 = 32 ∨ (Rect.block (s := S4096x4096) S1024x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S128x4096.size a
  hwx0_2 : ∀ i : grid0.Coords, EltTy.bits .f32 = 32 ∨ (Rect.block (s := S128x4096) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S4096x16.size a
  hwx0_3 : ∀ i : grid0.Coords, EltTy.bits .f32 = 32 ∨ (Rect.block (s := S4096x16) S1024x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x256.size a ≤ S16x4096.size a
  hwx0_4 : ∀ i : grid0.Coords, EltTy.bits .f32 = 32 ∨ (Rect.block (s := S16x4096) S16x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x256.size a ≤ S8x256.size a
  hwx0_7 : ∀ i : grid0.Coords, EltTy.bits .f32 = 32 ∨ (Rect.block (s := S8x256) S8x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x1024.size a ≤ S2048x4096.size a
  hwx0_8 : ∀ i : grid0.Coords, EltTy.bits .f32 = 32 ∨ (Rect.block (s := S2048x4096) S2048x1024.size (cc0_transform_8 i) (hinb0_8 i)).WholeWords (EltTy.packing .f32)

variable [Facts₀]

def dot_S1024x8_S8x256_S1024x256_1_0_0_1_n_n : DotDims S1024x8 S8x256 S1024x256 where
  lhsContracting := [1]
  rhsContracting := [0]
  lhsNonContracting := [0]
  rhsNonContracting := [1]
  lhsBatch := []
  rhsBatch := []
  wf := dot_S1024x8_S8x256_S1024x256_1_0_0_1_n_n_wf
def dot_S1024x16_S16x256_S1024x256_1_0_0_1_n_n : DotDims S1024x16 S16x256 S1024x256 where
  lhsContracting := [1]
  rhsContracting := [0]
  lhsNonContracting := [0]
  rhsNonContracting := [1]
  lhsBatch := []
  rhsBatch := []
  wf := dot_S1024x16_S16x256_S1024x256_1_0_0_1_n_n_wf
def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_v3) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_cst) S8x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S2048x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2048x4096 : Shape := ⟨2, ![2048, 4096]⟩
abbrev S4096x4096 : Shape := ⟨2, ![4096, 4096]⟩
abbrev S4096x128 : Shape := ⟨2, ![4096, 128]⟩
abbrev S4096x16 : Shape := ⟨2, ![4096, 16]⟩
abbrev S16x4096 : Shape := ⟨2, ![16, 4096]⟩
abbrev S_ : Shape := ⟨0, ![]⟩
abbrev S4096 : Shape := ⟨1, ![4096]⟩
abbrev S4096x128x32 : Shape := ⟨3, ![4096, 128, 32]⟩
abbrev S4096x128x1 : Shape := ⟨3, ![4096, 128, 1]⟩
abbrev S1x4096 : Shape := ⟨2, ![1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x4096, .i32⟩
  | .hbm, ⟨2, _⟩ => ⟨S4096x128, .f32⟩
  | .hbm, ⟨3, _⟩ => ⟨S4096x16, .f32⟩
  | .hbm, ⟨4, _⟩ => ⟨S16x4096, .f32⟩
  | .hbm, ⟨5, _⟩ => ⟨S_, .f32⟩
  | .hbm, ⟨6, _⟩ => ⟨S4096, .f32⟩
  | .hbm, ⟨7, _⟩ => ⟨S4096x128x32, .i32⟩
  | .hbm, ⟨8, _⟩ => ⟨S4096x128x32, .f32⟩
  | .hbm, ⟨9, _⟩ => ⟨S_, .f32⟩
  | .hbm, ⟨10, _⟩ => ⟨S4096x128x32, .f32⟩
  | .hbm, ⟨11, _⟩ => ⟨S4096x128x32, .f32⟩
  | .hbm, ⟨12, _⟩ => ⟨S4096x128x1, .f32⟩
  | .hbm, ⟨13, _⟩ => ⟨S4096x128x32, .f32⟩
  | .hbm, ⟨14, _⟩ => ⟨S4096x128x32, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S2048x4096, .f32⟩
  | .hbm, ⟨21, _⟩ => ⟨S1x4096, .f32⟩
  | .hbm, ⟨22, _⟩ => ⟨S2048x4096, .f32⟩
  | .hbm, ⟨23, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  shapeCasts_S4096x4096_S4096x128x32 : S4096x4096.ShapeCasts S4096x128x32
  bcast_S_S4096x128x32 : S_.BroadcastsInDim S4096x128x32 (![] : Fin 0 → Fin S4096x128x32.rank)
  bcast_S4096x128_S4096x128x1_0_1 : S4096x128.BroadcastsInDim S4096x128x1 (![0, 1] : Fin 2 → Fin S4096x128x1.rank)
  bcast_S4096x128x1_S4096x128x32_0_1_2 : S4096x128x1.BroadcastsInDim S4096x128x32 (![0, 1, 2] : Fin 3 → Fin S4096x128x32.rank)
  shapeCasts_S4096x128x32_S4096x4096 : S4096x128x32.ShapeCasts S4096x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  dot_S4096x16_S16x4096_S4096x4096_1_0_0_1_n_n_wf : DotDims.WF S4096x16 S16x4096 S4096x4096 [1] [0] [0] [1] [] []
  dot_S2048x4096_S4096x4096_S2048x4096_1_1_0_0_n_n_wf : DotDims.WF S2048x4096 S4096x4096 S2048x4096 [1] [1] [0] [0] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S2048x4096_S4096x4096_S2048x4096_1_1_0_0_n_n : DotDims S2048x4096 S4096x4096 S2048x4096 where
  lhsContracting := [1]
  rhsContracting := [1]
  lhsNonContracting := [0]
  rhsNonContracting := [0]
  lhsBatch := []
  rhsBatch := []
  wf := dot_S2048x4096_S4096x4096_S2048x4096_1_1_0_0_n_n_wf

class Facts : Prop extends Facts₀ where

variable [Facts]
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.Body.lean ====
/-
  The kernel body's arithmetic at one entry of the output block, on the extended reals.

  At a grid point the body forms a 1024 x 256 tile of the patched weight,
    w(c, j) = (code(c, j) - 8) * (sum_g scalesT(g, c) * selector(g, j)) + alpha * sum_r up(c, r) * down(r, j),
  the per-column scale obtained as a small product with a 0/1 selector, and adds x_block * w^T into the accumulator:
    out(p, c) = acc(p, c) + sum_j x(p, j) * w(c, j).
  The roundings to bf16 on the way into the matrix unit are the identity on the extended reals. The first point of a run
  starts from the zero block and the last one adds the bias row.
-/
import proofs.«149973_j37666863186343_2_alg».proof.Proof.Gen.KernelIdeal.Skeleton
import proofs.«149973_j37666863186343_2_alg».proof.Proof.LibMatmulPlain
import proofs.«149973_j37666863186343_2_alg».proof.Proof.LibDotsNT
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- A 1 x 1 array spread over [a, b] reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => show 0 = if (1 : ℕ) = 1 then 0 else p.val; rw [if_pos rfl]
  | ⟨1, _⟩ => show 0 = if (1 : ℕ) = 1 then 0 else q.val; rw [if_pos rfl]

/-- Entry (c, j) of the weight tile the body forms from its blocks. -/
def tileW (x1 : Vec Ideal S1024x256 .i32) (x2 : Vec Ideal S8x1024 .f32) (x7 : Vec Ideal S8x256 .f32)
    (x3 : Vec Ideal S1024x16 .f32) (x4 : Vec Ideal S16x256 .f32) (x6 : Vec Ideal S1x1 .f32) (c : Fin 1024) (j : Fin 256) : EReal :=
  (FloatOps.sitofp (F := Ideal) .f32 (x1 (ix2 c j)) - Ideal.ofBits .f32 0x41000000#32) * (∑ g : Fin 8, x2 (ix2 g c) * x7 (ix2 g j))
    + x6 (ix2 (0 : Fin 1) (0 : Fin 1)) * ∑ r : Fin 16, x3 (ix2 c r) * x4 (ix2 r j)

/-- The accumulating store's value at entry (p, c): the accumulator plus the row of x against the tile's row c. -/
theorem pay3_apply (x1 : Vec Ideal S1024x256 .i32) (x2 : Vec Ideal S8x1024 .f32) (x7 : Vec Ideal S8x256 .f32)
    (x3 : Vec Ideal S1024x16 .f32) (x4 : Vec Ideal S16x256 .f32) (x6 : Vec Ideal S1x1 .f32) (x0 : Vec Ideal S2048x256 .bf16)
    (acc : Vec Ideal S2048x1024 .f32) (p : Fin 2048) (c : Fin 1024) :
    k0_pay3 (F := Ideal) x1 x2 x7 x3 x4 x6 x0 acc (ix2 p c)
      = acc (ix2 p c) + ∑ j : Fin 256, x0 (ix2 p j) * tileW x1 x2 x7 x3 x4 x6 c j := by
  unfold k0_pay3
  dsimp only
  simp only [shapeCast_self]
  rw [addf_apply]
  refine congrArg (acc (ix2 p c) + ·) ?_
  refine (Cert.LibDotsNT.nt_matmul_zero_apply dot_S2048x256_S1024x256_S2048x1024_1_1_0_0_n_n rfl rfl rfl rfl rfl rfl
    (φ₁ := .bf16) (φ₂ := .bf16) none x0 _ p c).trans ?_
  refine Finset.sum_congr rfl fun j _ => congrArg (x0 (ix2 p j) * ·) ?_
  have hs := Cert.LibMatmulPlain.matmul_zero_apply dot_S1024x8_S8x256_S1024x256_1_0_0_1_n_n rfl rfl rfl rfl rfl rfl
    (φ₁ := .f32) (φ₂ := .f32) (some .fp32) (transpose S1024x8 [1, 0] x2 transposes_S8x1024_p1_0_S1024x8) x7 c j
  have hl := Cert.LibMatmulPlain.matmul_zero_apply dot_S1024x16_S16x256_S1024x256_1_0_0_1_n_n rfl rfl rfl rfl rfl rfl
    (φ₁ := .bf16) (φ₂ := .bf16) none (truncf .bf16 x3 bitsLt_bf16_f32) (truncf .bf16 x4 bitsLt_bf16_f32) c j
  rw [truncf_apply, addf_apply, mulf_apply, mulf_apply, subf_apply, sitofp_apply, broadcast_apply]
  simp only [matmul]
  rw [hs, hl, broadcastTo_11_ab_apply]
  have ht : ∀ g : Fin 8, transpose S1024x8 [1, 0] x2 transposes_S8x1024_p1_0_S1024x8 (ix2 c g) = x2 (ix2 g c) :=
    fun g => transpose_ix2_apply x2 _ c g
  simp only [ht]
  rfl

/-- The zero block a run starts from. -/
theorem pay2_apply (i : S2048x1024.Idx) : k0_pay2 (F := Ideal) i = 0 := by
  unfold k0_pay2
  try dsimp only
  rw [broadcast_apply]
  exact Ideal.ofBits_zero_f32

/-- The last point's second store: the accumulated block plus the bias row. -/
theorem pay1_apply (v34 : Vec Ideal S2048x1024 .f32) (v36 : Vec Ideal S1x1024 .f32) (p : Fin 2048) (c : Fin 1024) :
    k0_pay1 (F := Ideal) v34 v36 (ix2 p c) = v34 (ix2 p c) + v36 (ix2 (0 : Fin 1) c) := by
  unfold k0_pay1
  try dsimp only
  simp only [shapeCast_self]
  rw [addf_apply, broadcastTo_1b_ab_apply]

end Cert.KernelIdeal.Body

end
-- ==== Proof.Spec.lean ====
/-
  The function both programs compute, over the extended reals.

  A linear layer y = x W^T + b over a weight W that is stored quantized and patched by a low-rank product:
    W(o, i) = (code(o, i) - 8) * scale(o, i / 32) + alpha * sum_r up(o, r) * down(r, i),
  one scale per run of 32 consecutive columns, and
    y(t, o) = (sum_i x(t, i) * W(o, i)) + bias(o).
  Also here: the two regroupings of sums that join the tiled evaluation to this one. A sum over 4096 columns is the
  sum over 16 consecutive blocks of 256 columns; and a sum against a 0/1 selector row (one on the 32 columns of one
  group, zero elsewhere) picks out one term. Both hold on the extended reals without any finiteness: addition there is
  commutative and associative, a * 1 = a and a * 0 = 0 for every a, infinite or not.
-/
import Idealize.ShloMosaic.PureOps.Ideal
import Idealize.ShloMosaic.Lib.ValueIdx

noncomputable section

open scoped BigOperators

namespace Cert.QuantLinear

open Idealize.ShloMosaic Idealize.ShloMosaic.ValueIdx

/-- The group of 32 columns that column `i` belongs to. -/
def grp (i : Fin 4096) : Fin 128 := ⟨i.val / 32, by have := i.isLt; omega⟩

/-- Entry (o, i) of the patched weight: the dequantized code plus alpha times the low-rank product. -/
def weight (q : (⟨2, ![4096, 4096]⟩ : Shape).Idx → BitVec 32) (sc : (⟨2, ![4096, 128]⟩ : Shape).Idx → EReal)
    (up : (⟨2, ![4096, 16]⟩ : Shape).Idx → EReal) (dn : (⟨2, ![16, 4096]⟩ : Shape).Idx → EReal) (al : EReal)
    (o i : Fin 4096) : EReal :=
  (FloatOps.sitofp (F := Ideal) .f32 (q (ix2 o i)) - Ideal.ofBits .f32 0x41000000#32) * sc (ix2 o (grp i))
    + al * ∑ r : Fin 16, up (ix2 o r) * dn (ix2 r i)

/-- Entry (t, o) of the layer's result for a weight given entry by entry. -/
def linearAt (x : (⟨2, ![2048, 4096]⟩ : Shape).Idx → EReal) (w : Fin 4096 → Fin 4096 → EReal)
    (b : (⟨1, ![4096]⟩ : Shape).Idx → EReal) (t : Fin 2048) (o : Fin 4096) : EReal :=
  (∑ i : Fin 4096, x (ix2 t i) * w o i) + b (ix1 o)

/-- The whole result array. -/
def result (x : (⟨2, ![2048, 4096]⟩ : Shape).Idx → EReal) (q : (⟨2, ![4096, 4096]⟩ : Shape).Idx → BitVec 32)
    (sc : (⟨2, ![4096, 128]⟩ : Shape).Idx → EReal) (up : (⟨2, ![4096, 16]⟩ : Shape).Idx → EReal)
    (dn : (⟨2, ![16, 4096]⟩ : Shape).Idx → EReal) (al : EReal) (b : (⟨1, ![4096]⟩ : Shape).Idx → EReal) :
    (⟨2, ![2048, 4096]⟩ : Shape).Idx → EReal :=
  fun j => linearAt x (weight q sc up dn al) b (j 0) (j 1)

/-- Column `j` of the block of 256 columns that grid point `n` works on (the block number is `n % 16`). -/
def colOf (n : ℕ) (j : Fin 256) : Fin 4096 := ⟨256 * (n % 16) + j.val, by have := j.isLt; omega⟩

/-- Row `c` of the block of 1024 weight rows that grid point `n` works on (the block number is `n / 16`). -/
def rowOf (n : ℕ) (c : Fin 1024) : Fin 4096 := ⟨1024 * ((n / 16) % 4) + c.val, by have := c.isLt; omega⟩

/-- A sum over the first n * B naturals, block by block. -/
theorem sum_range_blocks {M : Type*} [AddCommMonoid M] (g : ℕ → M) (B : ℕ) :
    ∀ n : ℕ, ∑ i ∈ Finset.range (n * B), g i = ∑ a ∈ Finset.range n, ∑ c ∈ Finset.range B, g (a * B + c)
  | 0 => by simp
  | n + 1 => by
    rw [Nat.succ_mul, Finset.sum_range_add, sum_range_blocks g B n, Finset.sum_range_succ]

/-- A sum over the 4096 columns is the sum, over the 16 points of a run, of the sums over each point's block. -/
theorem sum_blocks {M : Type*} [AddCommMonoid M] (f : Fin 4096 → M) (b : ℕ) (hb : b % 16 = 0) :
    ∑ s ∈ Finset.range 16, ∑ j : Fin 256, f (colOf (b + s) j) = ∑ i, f i := by
  have h := sum_range_blocks (fun i => if h : i < 4096 then f ⟨i, h⟩ else 0) 256 16
  rw [show 16 * 256 = 4096 from by norm_num] at h
  rw [Finset.sum_fin_eq_sum_range, h]
  refine Finset.sum_congr rfl fun s hs => ?_
  rw [Finset.sum_fin_eq_sum_range]
  refine Finset.sum_congr rfl fun c hc => ?_
  have hs' : s < 16 := Finset.mem_range.mp hs
  have hc' : c < 256 := Finset.mem_range.mp hc
  rw [dif_pos hc', dif_pos (show s * 256 + c < 4096 by omega)]
  refine congrArg f (Fin.ext ?_)
  show 256 * ((b + s) % 16) + c = s * 256 + c
  omega

/-- A sum against the selector of one group picks out that group's term. -/
theorem sum_select (s : Fin 8 → EReal) (g0 : Fin 8) (sel : Fin 8 → EReal)
    (hsel : ∀ g, sel g = if g = g0 then 1 else 0) : ∑ g : Fin 8, s g * sel g = s g0 := by
  simp only [hsel, mul_ite, mul_one, mul_zero]
  rw [Finset.sum_ite_eq' Finset.univ g0 s, if_pos (Finset.mem_univ _)]

end Cert.QuantLinear

end
-- ==== Proof.Blocks.lean ====
/-
  What each input block of the kernel holds, entry by entry, in terms of the program's arguments.

  The grid has 64 points; point n works on weight rows 1024 * (n / 16) .. and on columns 256 * (n % 16) .. . Its blocks:
  x[:, cols] (x is cast to bf16 on the way in: the identity here), codes[rows, cols], the transposed scales at
  (groups 8 * (n % 16) .., rows), up[rows, :], down[:, cols], bias[rows] as a row, alpha as a 1x1 array, and the constant
  8 x 256 selector whose entry (g, j) is one when column j lies in group g (j / 32 = g) and zero otherwise.
-/
import proofs.«149973_j37666863186343_2_alg».proof.Proof.Gen.KernelIdeal.Frame.Runs
import proofs.«149973_j37666863186343_2_alg».proof.Proof.Spec
import Idealize.ShloMosaic.Lib.Pipeline.Value
import Idealize.ShloMosaic.Lib.ValueLayout
import Idealize.ShloMosaic.Lib.ValueIdx
import Idealize.ShloMosaic.Lib.StableHlo.Run
import Idealize.ShloMosaic.PureOps.Ideal.Laws

noncomputable section

open scoped BigOperators

namespace Cert.KernelIdeal.Blocks

open Cert.KernelIdeal Cert.KernelIdeal.Gen Idealize.ShloMosaic Idealize.ShloMosaic.TcCoe Idealize.SL.Sem Idealize.ShloMosaic.ValueIdx
open Cert.QuantLinear

variable (m : (ℓ : Loc nD τ sig) → Buf (Elt Ideal) ℓ)

/-! ## The index maps, decided over the grid -/

theorem idx_facts : ∀ t : Fin cfg0.N,
    win0_0.index t (0 : Fin 2) = 0 ∧ win0_0.index t (1 : Fin 2) = t.val % 16
    ∧ win0_1.index t (0 : Fin 2) = t.val / 16 % 4 ∧ win0_1.index t (1 : Fin 2) = t.val % 16
    ∧ win0_2.index t (0 : Fin 2) = t.val % 16 ∧ win0_2.index t (1 : Fin 2) = t.val / 16 % 4
    ∧ win0_3.index t (0 : Fin 2) = t.val / 16 % 4 ∧ win0_3.index t (1 : Fin 2) = 0
    ∧ win0_4.index t (0 : Fin 2) = 0 ∧ win0_4.index t (1 : Fin 2) = t.val % 16
    ∧ win0_5.index t (0 : Fin 2) = 0 ∧ win0_5.index t (1 : Fin 2) = t.val / 16 % 4
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## The selector's table -/

/-- Entry n of the 8 x 256 table, row-major: the word of 1.0 when the column n % 256 lies in group n / 256, else zero. -/
theorem lit0_eq : ∀ n : Fin 2048, lit0 n = if n.val % 256 / 32 = n.val / 256 then 0x3F800000#32 else 0x00000000#32 := by
  decide +kernel

/-! ## The arrays the region finds, as functions of the arguments -/

/-- x, cast to bf16 before the call: unchanged on the extended reals. -/
theorem V_x (c : Dev nD) (i : S2048x4096.Idx) : V m c main_v3 i = m ((c : Thread nD τ).loc main_arg0) i := by
  have e : (V m c main_v3 : S2048x4096.Idx → EReal)
      = (truncf .bf16 (m ((c : Thread nD τ).loc main_arg0) : FVec Ideal S2048x4096 .f32) bitsLt_bf16_f32 : FVec Ideal S2048x4096 .bf16) := by
    dsimp only [Gen.V, Gen.hostOps0]; after_results <;> rfl
  exact congrFun e i

/-- The scales, transposed before the call. -/
theorem V_scalesT (c : Dev nD) (a : Fin 128) (b : Fin 4096) :
    V m c main_v0 (ix2 a b) = m ((c : Thread nD τ).loc main_arg2) (ix2 b a) := by
  have e : (V m c main_v0 : S128x4096.Idx → EReal)
      = (transpose S128x4096 [1, 0] (m ((c : Thread nD τ).loc main_arg2) : FVec Ideal S4096x128 .f32) transposes_S4096x128_S128x4096_1_0 : FVec Ideal S128x4096 .f32) := by
    dsimp only [Gen.V, Gen.hostOps0]; after_results <;> rfl
  exact (congrFun e (ix2 a b)).trans (transpose_ix2_apply _ _ a b)

/-- The bias, reshaped to one row before the call. -/
theorem V_bias (c : Dev nD) (u : Fin 1) (b : Fin 4096) :
    V m c main_v1 (ix2 u b) = m ((c : Thread nD τ).loc main_arg6) (ix1 b) := by
  have e : (V m c main_v1 : S1x4096.Idx → EReal)
      = (shapeCast S1x4096 (m ((c : Thread nD τ).loc main_arg6) : FVec Ideal S4096 .f32) shapeCasts_S4096_S1x4096 : FVec Ideal S1x4096 .f32) := by
    dsimp only [Gen.V, Gen.hostOps0]; after_results <;> rfl
  exact (congrFun e (ix2 u b)).trans (shapeCast_a_1a_apply _ _ u b)

/-- alpha, reshaped to a 1 x 1 array before the call. -/
theorem V_alpha (c : Dev nD) (i : S1x1.Idx) : V m c main_v2 i = m ((c : Thread nD τ).loc main_arg5) ix0 := by
  have e : (V m c main_v2 : S1x1.Idx → EReal)
      = (shapeCast S1x1 (m ((c : Thread nD τ).loc main_arg5) : FVec Ideal S_ .f32) shapeCasts_S_S1x1 : FVec Ideal S1x1 .f32) := by
    dsimp only [Gen.V, Gen.hostOps0]; after_results <;> rfl
  rw [congrFun e i]
  unfold shapeCast
  exact congrArg _ (funext fun a => a.elim0)

/-- The selector: a constant table. -/
theorem V_sel (c : Dev nD) (i : S8x256.Idx) :
    V m c main_cst i = Ideal.ofBits .f32 (lit0 (S8x256.rowMajor i)) := by
  have e : (V m c main_cst : S8x256.Idx → EReal)
      = (fun i => FloatOps.ofBits (F := Ideal) .f32 (lit0 (S8x256.rowMajor i)) : FVec Ideal S8x256 .f32) := by
    dsimp only [Gen.V, Gen.hostOps0]; after_results <;> rfl
  exact congrFun e i

end Cert.KernelIdeal.Blocks

end
-- ==== Proof.BlockReads.lean ====
/-
  Each input block of the kernel at a grid point, read at an entry, as an entry of the program's arguments.

  A block's entry y sits in its array at (block index) * (block size) + y on each axis. At point n the block indices are
  the row block n / 16 and the column block n % 16 (decided once over the 64 points), so the entries are those of
  `QuantLinear.rowOf n` and `QuantLinear.colOf n`; the scale groups of column block k are 8 * k .. 8 * k + 7.
-/
import proofs.«149973_j37666863186343_2_alg».proof.Proof.Blocks

noncomputable section

open scoped BigOperators

namespace Cert.KernelIdeal.Blocks

open Cert.KernelIdeal Cert.KernelIdeal.Gen Idealize.ShloMosaic Idealize.ShloMosaic.TcCoe Idealize.SL.Sem Idealize.ShloMosaic.ValueIdx
open Cert.QuantLinear

variable (m : (ℓ : Loc nD τ sig) → Buf (Elt Ideal) ℓ)

/-- The scale group g of the column block that point n works on. -/
def grpOf (n : ℕ) (g : Fin 8) : Fin 128 := ⟨8 * (n % 16) + g.val, by have := g.isLt; omega⟩

/-- x's block: all rows, the point's columns. -/
theorem blk_x (c : Dev nD) (t : Fin cfg0.N) (p : Fin 2048) (j : Fin 256) :
    (iblk m c 0 t : Vec Ideal S2048x256 .bf16) (ix2 p j) = m ((c : Thread nD τ).loc main_arg0) (ix2 p (colOf t.val j)) := by
  obtain ⟨h0, h1, -⟩ := idx_facts t
  show V m c main_v3 (((cfg0.win 0).blk t).view.emb (ix2 p j)) = _
  rw [V_x]
  refine congrArg _ (funext fun a => Fin.ext ?_)
  match a with
  | ⟨0, _⟩ => show win0_0.index t (0 : Fin 2) * 2048 + 1 * p.val = p.val; rw [h0]; omega
  | ⟨1, _⟩ => show win0_0.index t (1 : Fin 2) * 256 + 1 * j.val = 256 * (t.val % 16) + j.val; rw [h1]; omega

/-- The codes' block: the point's rows and columns. -/
theorem blk_codes (c : Dev nD) (t : Fin cfg0.N) (r : Fin 1024) (j : Fin 256) :
    (iblk m c 1 t : Vec Ideal S1024x256 .i32) (ix2 r j)
      = m ((c : Thread nD τ).loc main_arg1) (ix2 (rowOf t.val r) (colOf t.val j)) := by
  obtain ⟨-, -, h0, h1, -⟩ := idx_facts t
  show V m c main_arg1 (((cfg0.win 1).blk t).view.emb (ix2 r j)) = _
  rw [V_main_arg1]
  refine congrArg _ (funext fun a => Fin.ext ?_)
  match a with
  | ⟨0, _⟩ => show win0_1.index t (0 : Fin 2) * 1024 + 1 * r.val = 1024 * (t.val / 16 % 4) + r.val; rw [h0]; omega
  | ⟨1, _⟩ => show win0_1.index t (1 : Fin 2) * 256 + 1 * j.val = 256 * (t.val % 16) + j.val; rw [h1]; omega

/-- The transposed scales' block: the column block's eight groups, the point's rows. -/
theorem blk_scales (c : Dev nD) (t : Fin cfg0.N) (g : Fin 8) (r : Fin 1024) :
    (iblk m c 2 t : Vec Ideal S8x1024 .f32) (ix2 g r)
      = m ((c : Thread nD τ).loc main_arg2) (ix2 (rowOf t.val r) (grpOf t.val g)) := by
  obtain ⟨-, -, -, -, h0, h1, -⟩ := idx_facts t
  show V m c main_v0 (((cfg0.win 2).blk t).view.emb (ix2 g r)) = _
  have e : ((cfg0.win 2).blk t).view.emb (ix2 g r) = ix2 (grpOf t.val g) (rowOf t.val r) := funext fun a => Fin.ext (by
    match a with
    | ⟨0, _⟩ => show win0_2.index t (0 : Fin 2) * 8 + 1 * g.val = 8 * (t.val % 16) + g.val; rw [h0]; omega
    | ⟨1, _⟩ => show win0_2.index t (1 : Fin 2) * 1024 + 1 * r.val = 1024 * (t.val / 16 % 4) + r.val; rw [h1]; omega)
  rw [e, V_scalesT]

/-- up's block: the point's rows. -/
theorem blk_up (c : Dev nD) (t : Fin cfg0.N) (r : Fin 1024) (k : Fin 16) :
    (iblk m c 3 t : Vec Ideal S1024x16 .f32) (ix2 r k) = m ((c : Thread nD τ).loc main_arg3) (ix2 (rowOf t.val r) k) := by
  obtain ⟨-, -, -, -, -, -, h0, h1, -⟩ := idx_facts t
  show V m c main_arg3 (((cfg0.win 3).blk t).view.emb (ix2 r k)) = _
  rw [V_main_arg3]
  refine congrArg _ (funext fun a => Fin.ext ?_)
  match a with
  | ⟨0, _⟩ => show win0_3.index t (0 : Fin 2) * 1024 + 1 * r.val = 1024 * (t.val / 16 % 4) + r.val; rw [h0]; omega
  | ⟨1, _⟩ => show win0_3.index t (1 : Fin 2) * 16 + 1 * k.val = k.val; rw [h1]; omega

/-- down's block: the point's columns. -/
theorem blk_down (c : Dev nD) (t : Fin cfg0.N) (k : Fin 16) (j : Fin 256) :
    (iblk m c 4 t : Vec Ideal S16x256 .f32) (ix2 k j) = m ((c : Thread nD τ).loc main_arg4) (ix2 k (colOf t.val j)) := by
  obtain ⟨-, -, -, -, -, -, -, -, h0, h1, -⟩ := idx_facts t
  show V m c main_arg4 (((cfg0.win 4).blk t).view.emb (ix2 k j)) = _
  rw [V_main_arg4]
  refine congrArg _ (funext fun a => Fin.ext ?_)
  match a with
  | ⟨0, _⟩ => show win0_4.index t (0 : Fin 2) * 16 + 1 * k.val = k.val; rw [h0]; omega
  | ⟨1, _⟩ => show win0_4.index t (1 : Fin 2) * 256 + 1 * j.val = 256 * (t.val % 16) + j.val; rw [h1]; omega

/-- The bias row's block: the point's rows. -/
theorem blk_bias (c : Dev nD) (t : Fin cfg0.N) (u : Fin 1) (r : Fin 1024) :
    (iblk m c 5 t : Vec Ideal S1x1024 .f32) (ix2 u r) = m ((c : Thread nD τ).loc main_arg6) (ix1 (rowOf t.val r)) := by
  obtain ⟨-, -, -, -, -, -, -, -, -, -, h0, h1, -⟩ := idx_facts t
  show V m c main_v1 (((cfg0.win 5).blk t).view.emb (ix2 u r)) = _
  have e : ((cfg0.win 5).blk t).view.emb (ix2 u r) = ix2 (0 : Fin 1) (rowOf t.val r) := funext fun a => Fin.ext (by
    have hu := u.isLt
    match a with
    | ⟨0, _⟩ => show win0_5.index t (0 : Fin 2) * 1 + 1 * u.val = 0; rw [h0]; omega
    | ⟨1, _⟩ => show win0_5.index t (1 : Fin 2) * 1024 + 1 * r.val = 1024 * (t.val / 16 % 4) + r.val; rw [h1]; omega)
  rw [e, V_bias]

/-- alpha's block: its one entry. -/
theorem blk_alpha (c : Dev nD) (t : Fin cfg0.N) (y : S1x1.Idx) :
    (iblk m c 6 t : Vec Ideal S1x1 .f32) y = m ((c : Thread nD τ).loc main_arg5) ix0 := by
  show V m c main_v2 (((cfg0.win 6).blk t).view.emb y) = _
  rw [V_alpha]

/-- The selector's block is the whole table: one where column j lies in group g, zero elsewhere. -/
theorem blk_sel (c : Dev nD) (t : Fin cfg0.N) (g : Fin 8) (j : Fin 256) :
    (iblk m c 7 t : Vec Ideal S8x256 .f32) (ix2 g j)
      = if g = (⟨j.val / 32, by have := j.isLt; omega⟩ : Fin 8) then (1 : EReal) else 0 := by
  obtain ⟨-, -, -, -, -, -, -, -, -, -, -, -, -, -, h0, h1⟩ := idx_facts t
  have hg := g.isLt
  have hj := j.isLt
  show V m c main_cst (((cfg0.win 7).blk t).view.emb (ix2 g j)) = _
  have e : ((cfg0.win 7).blk t).view.emb (ix2 g j) = ix2 g j := funext fun a => Fin.ext (by
    match a with
    | ⟨0, _⟩ => show win0_7.index t (0 : Fin 2) * 8 + 1 * g.val = g.val; rw [h0]; omega
    | ⟨1, _⟩ => show win0_7.index t (1 : Fin 2) * 256 + 1 * j.val = j.val; rw [h1]; omega)
  have hr : S8x256.rowMajor (ix2 g j) = (⟨g.val * 256 + j.val, by omega⟩ : Fin 2048) := Fin.ext (Shape.rowMajor_val_two _)
  rw [e, V_sel, hr, lit0_eq]
  by_cases h : g = (⟨j.val / 32, by omega⟩ : Fin 8)
  · have hv : g.val = j.val / 32 := congrArg Fin.val h
    rw [if_pos h, if_pos (show (g.val * 256 + j.val) % 256 / 32 = (g.val * 256 + j.val) / 256 by omega)]
    exact IdealRules.sign_bit.ideal_onePat .f32
  · have hv : g.val ≠ j.val / 32 := fun hh => h (Fin.ext hh)
    rw [if_neg h, if_neg (show ¬ (g.val * 256 + j.val) % 256 / 32 = (g.val * 256 + j.val) / 256 by omega)]
    exact Ideal.ofBits_zero_f32

end Cert.KernelIdeal.Blocks

end
-- ==== Proof.KernelSide.lean ====
/-
  The kernel's result array is the layer's function `QuantLinear.result` of the arguments.

  The output block of weight-row block o is accumulated over the 16 points 16 * o .. 16 * o + 15 of a run: the first
  point starts from zero, every point adds x[:, cols] * w[rows, cols]^T for its 256 columns, the last adds the bias row.
  So entry (p, r) of the block ends at
    (0 + sum over the 16 points of sum_j x(p, col j) * W(row r, col j)) + bias(row r),
  where the tile entry w(r, j) the body forms is W(row r, col j): its scale, a sum against the 0/1 selector, is the
  scale of the column's group. Sixteen consecutive blocks of 256 columns are the 4096 columns, and sums on the
  extended reals may be regrouped freely, so this is the reference's single sum over all columns plus the bias.
-/
import proofs.«149973_j37666863186343_2_alg».proof.Proof.Gen.KernelIdeal.Value
import proofs.«149973_j37666863186343_2_alg».proof.Proof.Body
import proofs.«149973_j37666863186343_2_alg».proof.Proof.BlockReads
import proofs.«149973_j37666863186343_2_alg».proof.Proof.Spec

noncomputable section

open scoped BigOperators

namespace Cert.KernelIdeal.KernelSide

open Cert.KernelIdeal Cert.KernelIdeal.Gen Cert.KernelIdeal.Value Cert.KernelIdeal.Body Cert.KernelIdeal.Blocks
open Idealize.ShloMosaic Idealize.ShloMosaic.TcCoe Idealize.SL.Sem Idealize.ShloMosaic.ValueIdx
open Cert.QuantLinear

variable (m : (ℓ : Loc nD τ sig) → Buf (Elt Ideal) ℓ)

/-- The argument x on core c, as an array of extended reals. -/
abbrev argX (c : Dev nD) : S2048x4096.Idx → EReal := m ((c : Thread nD τ).loc main_arg0)

/-- The bias on core c. -/
abbrev argB (c : Dev nD) : S4096.Idx → EReal := m ((c : Thread nD τ).loc main_arg6)

/-- The patched weight of the arguments on core c. -/
def wgt (c : Dev nD) : Fin 4096 → Fin 4096 → EReal :=
  weight (m ((c : Thread nD τ).loc main_arg1)) (m ((c : Thread nD τ).loc main_arg2)) (m ((c : Thread nD τ).loc main_arg3))
    (m ((c : Thread nD τ).loc main_arg4)) (m ((c : Thread nD τ).loc main_arg5) ix0)

/-- What grid point n adds to entry (p, r) of its output block. -/
def addend (c : Dev nD) (n : ℕ) (p : Fin 2048) (r : Fin 1024) : EReal :=
  ∑ j : Fin 256, argX m c (ix2 p (colOf n j)) * wgt m c (rowOf n r) (colOf n j)

/-- The weight tile the body forms at point t is the patched weight at the point's rows and columns. -/
theorem tile_eq (c : Dev nD) (t : Fin cfg0.N) (r : Fin 1024) (j : Fin 256) :
    tileW (iblk m c 1 t) (iblk m c 2 t) (iblk m c 7 t) (iblk m c 3 t) (iblk m c 4 t) (iblk m c 6 t) r j
      = wgt m c (rowOf t.val r) (colOf t.val j) := by
  have hj := j.isLt
  unfold tileW wgt weight
  rw [blk_codes m c t r j, blk_alpha m c t]
  simp only [blk_scales m c t, blk_sel m c t, blk_up m c t, blk_down m c t]
  rw [sum_select (fun g => m ((c : Thread nD τ).loc main_arg2) (ix2 (rowOf t.val r) (grpOf t.val g)))
    (⟨j.val / 32, by omega⟩ : Fin 8) _ (fun g => rfl)]
  have hgrp : grpOf t.val (⟨j.val / 32, by omega⟩ : Fin 8) = grp (colOf t.val j) := Fin.ext (by
    show 8 * (t.val % 16) + j.val / 32 = (256 * (t.val % 16) + j.val) / 32
    omega)
  rw [hgrp]

/-- The accumulating store at point n: the accumulator plus the point's addend. -/
theorem step_apply (c : Dev nD) (n : ℕ) (h : n < cfg0.N) (acc : Vec Ideal S2048x1024 .f32) (p : Fin 2048) (r : Fin 1024) :
    k0_pay3 (F := Ideal) (iblk m c 1 ⟨n, h⟩) (iblk m c 2 ⟨n, h⟩) (iblk m c 7 ⟨n, h⟩) (iblk m c 3 ⟨n, h⟩) (iblk m c 4 ⟨n, h⟩)
        (iblk m c 6 ⟨n, h⟩) (iblk m c 0 ⟨n, h⟩) acc (ix2 p r)
      = acc (ix2 p r) + addend m c n p r := by
  refine (pay3_apply (iblk m c 1 ⟨n, h⟩) (iblk m c 2 ⟨n, h⟩) (iblk m c 7 ⟨n, h⟩) (iblk m c 3 ⟨n, h⟩) (iblk m c 4 ⟨n, h⟩)
    (iblk m c 6 ⟨n, h⟩) (iblk m c 0 ⟨n, h⟩) acc p r).trans ?_
  refine congrArg (acc (ix2 p r) + ·) (Finset.sum_congr rfl fun j _ => ?_)
  rw [blk_x m c ⟨n, h⟩ p j, tile_eq m c ⟨n, h⟩ r j]

/-- The fold of a whole run at entry (p, r) of its block. -/
theorem fold_eq (c : Dev nD) (o : ℕ) (ho : o < 4) (h : 16 * o + 15 < cfg0.N) (p : Fin 2048) (r : Fin 1024) :
    Pipeline.accAt (reset8 m c) (step8 m c) (16 * o) 15 h (ix2 p r)
      = (0 + ∑ s ∈ Finset.range 16, addend m c (16 * o + s) p r)
        + argB m c (ix1 (rowOf (16 * o + 15) r)) := by
  have hN : cfg0.N = 64 := N_0
  have h14 : Pipeline.accAt (reset8 m c) (step8 m c) (16 * o) 14 (by omega) (ix2 p r)
      = 0 + ∑ s ∈ Finset.range 15, addend m c (16 * o + s) p r := Pipeline.accAt_add_apply (reset8 m c) (step8 m c) (fun _ => (0 : EReal))
    (fun n (y : S2048x1024.Idx) => addend m c n (y 0) (y 1)) (16 * o) 14
    (fun hb i => by
      obtain ⟨p', r', rfl⟩ : ∃ (p' : Fin 2048) (r' : Fin 1024), i = ix2 p' r' := ⟨i 0, i 1, eq_ix2 i⟩
      unfold reset8
      rw [step_apply m c (16 * o) hb _ p' r', pay2_apply])
    (fun n hn acc i hlo hhi => by
      obtain ⟨p', r', rfl⟩ : ∃ (p' : Fin 2048) (r' : Fin 1024), i = ix2 p' r' := ⟨i 0, i 1, eq_ix2 i⟩
      unfold step8
      rw [if_pos ⟨by omega, by omega⟩]
      exact step_apply m c n hn acc p' r')
    14 le_rfl (by omega) (ix2 p r)
  have hlast : ∀ acc : Vec Ideal S2048x1024 .f32, step8 m c (16 * o + (14 + 1)) h acc
      = k0_pay1 (k0_pay3 (iblk m c 1 ⟨16 * o + (14 + 1), h⟩) (iblk m c 2 ⟨16 * o + (14 + 1), h⟩) (iblk m c 7 ⟨16 * o + (14 + 1), h⟩)
          (iblk m c 3 ⟨16 * o + (14 + 1), h⟩) (iblk m c 4 ⟨16 * o + (14 + 1), h⟩) (iblk m c 6 ⟨16 * o + (14 + 1), h⟩)
          (iblk m c 0 ⟨16 * o + (14 + 1), h⟩) acc) (iblk m c 5 ⟨16 * o + (14 + 1), h⟩) := by
    intro acc
    unfold step8
    rw [if_neg (by omega), if_pos ⟨by omega, by omega⟩]
  rw [Pipeline.accAt_succ (reset8 m c) (step8 m c) (16 * o) 14 h, hlast]
  rw [pay1_apply, step_apply m c (16 * o + (14 + 1)) h _ p r, h14, blk_bias m c ⟨16 * o + (14 + 1), h⟩ 0 r,
    Finset.sum_range_succ _ 15]
  simp only [add_assoc]

/-- The kernel's result array is the layer's function of the arguments. -/
theorem G8_eq (c : Dev nD) :
    G8 m c = result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5) ix0) (m ((c : Thread nD τ).loc main_arg6)) := by
  funext i
  obtain ⟨p, q, rfl⟩ : ∃ (p : Fin 2048) (q : Fin 4096), i = ix2 p q := ⟨i 0, i 1, eq_ix2 i⟩
  have hp := p.isLt
  have hq := q.isLt
  have hN : cfg0.N = 64 := N_0
  have hrun : run8Of (ix2 p q) = q.val / 1024 := by
    show 4 * (p.val / 2048 - 0) + 1 * (q.val / 1024 - 0) = _
    omega
  have hloc : loc8Of (ix2 p q) = ix2 p (⟨q.val % 1024, by omega⟩ : Fin 1024) := funext fun a => Fin.ext (by
    match a with
    | ⟨0, _⟩ => show p.val % 2048 = p.val; omega
    | ⟨1, _⟩ => rfl)
  have e : ∀ (b : ℕ) (h : b + 15 < cfg0.N) (b' : ℕ) (h' : b' + 15 < cfg0.N), b = b' →
      Pipeline.accAt (reset8 m c) (step8 m c) b 15 h = Pipeline.accAt (reset8 m c) (step8 m c) b' 15 h' := by
    intro b h b' h' hb; subst hb; rfl
  unfold G8
  rw [dif_pos (by rw [hrun, hN]; omega), hloc,
    e _ _ (16 * (q.val / 1024)) (by rw [hN]; omega) (by rw [hrun]),
    fold_eq m c (q.val / 1024) (by omega) (by rw [hN]; omega) p ⟨q.val % 1024, by omega⟩, zero_add]
  have hrow : ∀ s, s < 16 → rowOf (16 * (q.val / 1024) + s) (⟨q.val % 1024, by omega⟩ : Fin 1024) = q := fun s hs => Fin.ext (by
    show 1024 * ((16 * (q.val / 1024) + s) / 16 % 4) + q.val % 1024 = q.val
    omega)
  rw [hrow 15 (by omega)]
  show (∑ s ∈ Finset.range 16, addend m c (16 * (q.val / 1024) + s) p ⟨q.val % 1024, by omega⟩) + argB m c (ix1 q)
    = (∑ i : Fin 4096, argX m c (ix2 p i) * wgt m c q i) + argB m c (ix1 q)
  refine congrArg (· + argB m c (ix1 q)) ?_
  refine Eq.trans ?_ (sum_blocks (fun i => argX m c (ix2 p i) * wgt m c q i) (16 * (q.val / 1024)) (by omega))
  refine Finset.sum_congr rfl fun s hs => ?_
  unfold addend
  rw [hrow s (Finset.mem_range.mp hs)]

end Cert.KernelIdeal.KernelSide

end
-- ==== Proof.RefSide.lean ====
/-
  The reference program's result, read entry by entry, is the layer's function `QuantLinear.result`.

  The reference reshapes the codes to [4096, 128, 32], subtracts 8, multiplies by the scale of each (row, group)
  spread along the last axis, reshapes back to [4096, 4096], adds alpha times the low-rank product, contracts x with
  that matrix along the columns and adds the bias spread over the rows. Entry (o, i) of the reshaped product sits at
  (o, i / 32, i % 32) of the rank-3 array, so its scale is scale(o, i / 32); nothing else moves.
-/
import proofs.«149973_j37666863186343_2_alg».proof.Proof.Gen.ReferenceIdeal.Read
import proofs.«149973_j37666863186343_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.QuantLinear

/-- Entry (o, k) of the reference's patched weight matrix. -/
theorem weight_apply (x1 : (⟨S4096x4096, .i32⟩ : BufTy).Contents (Elt Ideal)) (x2 : (⟨S4096x128, .f32⟩ : BufTy).Contents (Elt Ideal))
    (x3 : (⟨S4096x16, .f32⟩ : BufTy).Contents (Elt Ideal)) (x4 : (⟨S16x4096, .f32⟩ : BufTy).Contents (Elt Ideal))
    (x5 : (⟨S_, .f32⟩ : BufTy).Contents (Elt Ideal)) (o k : Fin 4096) :
    val_main_v11 (F := Ideal) x1 x2 x3 x4 x5 (ix2 o k) = weight x1 x2 x3 x4 (x5 ix0) o k := by
  have ho := o.isLt
  have hk := k.isLt
  have e3 : idx_main_v0 (idx_main_v7 (ix2 o k)) = ix2 o k := funext fun a => Fin.ext (by
    match a with
    | ⟨0, _⟩ => show (((o.val * 4096 + k.val) / 4096 * 128 + (o.val * 4096 + k.val) / 32 % 128) * 32 + (o.val * 4096 + k.val) % 32) / 4096 = o.val; omega
    | ⟨1, _⟩ => show (((o.val * 4096 + k.val) / 4096 * 128 + (o.val * 4096 + k.val) / 32 % 128) * 32 + (o.val * 4096 + k.val) % 32) % 4096 = k.val; omega)
  have e4 : idx_main_v4 (idx_main_v5 (idx_main_v7 (ix2 o k))) = ix2 o (grp k) := funext fun a => Fin.ext (by
    match a with
    | ⟨0, _⟩ => show (o.val * 4096 + k.val) / 4096 = o.val; omega
    | ⟨1, _⟩ => show (o.val * 4096 + k.val) / 32 % 128 = k.val / 32; omega)
  have e5 : ∀ r : Fin 16, lidx_main_v8 (ix2 o k) r = ix2 o r := fun r => funext fun a => Fin.ext (by
    match a with
    | ⟨0, _⟩ => rfl
    | ⟨1, _⟩ => rfl)
  have e6 : ∀ r : Fin 16, ridx_main_v8 (ix2 o k) r = ix2 r k := fun r => funext fun a => Fin.ext (by
    match a with
    | ⟨0, _⟩ => rfl
    | ⟨1, _⟩ => rfl)
  rw [val_main_v11_apply, val_main_v7_apply, val_main_v6_apply, val_main_v3_apply, val_main_v1_apply, val_main_v0_apply,
    val_main_v2_apply, val_main_cst_apply, val_main_v5_apply, val_main_v4_apply, val_main_v10_apply, val_main_v9_apply,
    val_main_v8_apply, e3, e4]
  simp only [e5, e6]
  rfl

/-- The reference's result array is the layer's function of the arguments. -/
theorem result_eq (x0 : (⟨S2048x4096, .f32⟩ : BufTy).Contents (Elt Ideal)) (x1 : (⟨S4096x4096, .i32⟩ : BufTy).Contents (Elt Ideal))
    (x2 : (⟨S4096x128, .f32⟩ : BufTy).Contents (Elt Ideal)) (x3 : (⟨S4096x16, .f32⟩ : BufTy).Contents (Elt Ideal))
    (x4 : (⟨S16x4096, .f32⟩ : BufTy).Contents (Elt Ideal)) (x5 : (⟨S_, .f32⟩ : BufTy).Contents (Elt Ideal))
    (x6 : (⟨S4096, .f32⟩ : BufTy).Contents (Elt Ideal)) :
    val_main_v15 (F := Ideal) x0 x1 x2 x3 x4 x5 x6 = result x0 x1 x2 x3 x4 (x5 ix0) x6 := by
  funext i
  obtain ⟨t, o, rfl⟩ : ∃ (t : Fin 2048) (o : Fin 4096), i = ix2 t o := ⟨i 0, i 1, eq_ix2 i⟩
  have e1 : ∀ k : Fin 4096, lidx_main_v12 (ix2 t o) k = ix2 t k := fun k => funext fun a => Fin.ext (by
    match a with
    | ⟨0, _⟩ => rfl
    | ⟨1, _⟩ => rfl)
  have e2 : ∀ k : Fin 4096, ridx_main_v12 (ix2 t o) k = ix2 o k := fun k => funext fun a => Fin.ext (by
    match a with
    | ⟨0, _⟩ => rfl
    | ⟨1, _⟩ => rfl)
  have e7 : idx_main_v13 (idx_main_v14 (ix2 t o)) = ix1 o := funext fun a => Fin.ext (by
    match a with
    | ⟨0, _⟩ => rfl)
  rw [val_main_v15_apply, val_main_v12_apply, val_main_v14_apply, val_main_v13_apply, e7]
  simp only [e1, e2, weight_apply]
  rfl

end Cert.ReferenceIdeal.RefValue

end
-- ==== Proof.lean ====
/-
  The kernel and the reference compute one function on the extended reals.

  Both programs evaluate a linear layer y = x W^T + b whose weight is stored as 4-bit codes with one scale per group of
  32 columns and is patched by alpha times a rank-16 product:
    W(o, i) = (code(o, i) - 8) * scale(o, i / 32) + alpha * sum_r up(o, r) * down(r, i).
  The kernel tiles the weight rows in 4 blocks and the columns in 16 blocks, forms each weight tile on the fly (the
  per-column scale through a product with a 0/1 selector), and accumulates the output block over the column blocks, adding
  the bias at the last one; the reference reshapes, scales, patches and contracts whole arrays. Entry by entry both are
    (sum_i x(t, i) * W(o, i)) + bias(o):
  `KernelSide.G8_eq` for the kernel's array, `RefValue.result_eq` for the reference's. The only laws used are that
  addition of extended reals is commutative and associative (sixteen partial sums regrouped into one), 0 + a = a,
  a * 1 = a and a * 0 = 0; none of them needs the inputs to be finite, so the precondition is not opened. The frames are
  the programs' runs with the values dropped; the idealization rewrote nothing, so that conjunct is trivial.
-/
import proofs.«149973_j37666863186343_2_alg».proof.Defs
import proofs.«149973_j37666863186343_2_alg».proof.Proof.Gen.Kernel.Frame
import proofs.«149973_j37666863186343_2_alg».proof.Proof.Gen.KernelIdeal.Value
import proofs.«149973_j37666863186343_2_alg».proof.Proof.Gen.Pre_finite_inputs
import proofs.«149973_j37666863186343_2_alg».proof.Proof.Gen.ReferenceIdeal.Run
import proofs.«149973_j37666863186343_2_alg».proof.Proof.KernelSide
import proofs.«149973_j37666863186343_2_alg».proof.Proof.RefSide
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- Run from memories that agree on the arguments, both programs end with the layer's function of those arguments in
    their result arrays. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.ReferenceIdeal.Read.val_main_v15_eq _ _ _ _ _ _ _).trans
    ((Cert.ReferenceIdeal.RefValue.result_eq _ _ _ _ _ _ _).trans (Cert.KernelIdeal.KernelSide.G8_eq m c).symm)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
